-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8 : Shape := ⟨2, ![1024, 8]⟩
abbrev S_ : Shape := ⟨0, ![]⟩

class Facts : Prop where
  bcast_S_S1024x8 : S_.BroadcastsInDim S1024x8 (![] : Fin 0 → Fin S1024x8.rank)
  reducesTo_S1024x8_S_d0_1 : S1024x8.ReducesTo [0, 1] S_
  h_S_ : 0 < S_.numel

variable [Facts]

def fn {F : FTy → Type} [FloatOps F] (main_arg0 : FVec F S1024x8 .f32) (main_arg1 : IVec S1024x8 32) : IVec S_ 1 :=
  let main_v0 : FVec F S1024x8 .f32 := Host.absf main_arg0
  let main_cst : FVec F S_ .f32 := constant S_ .f32 0x7F800000#32
  let main_v1 : FVec F S1024x8 .f32 := broadcastInDim S1024x8 ![] bcast_S_S1024x8 main_cst
  let main_v2 : IVec S1024x8 1 := cmpf .olt main_v0 main_v1
  let main_c : IVec S_ 1 := constantI S_ 1 1#1
  let main_v3 : IVec S_ 1 := (fun x v => Host.reduce IntOp.andi x v reducesTo_S1024x8_S_d0_1 h_S_) main_v2 main_c
  main_v3
-- ==== Kernel.lean ====
abbrev S1024x8 : Shape := ⟨2, ![1024, 8]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S512x1 : Shape := ⟨2, ![512, 1]⟩
abbrev S1x1024 : Shape := ⟨2, ![1, 1024]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 25
  | .vmem => 10
  | .smem => 0
  | _ => 0

abbrev bufTy : (tb : Table) → Fin (tcTables nBuf tb) → BufTy
  | .hbm, ⟨0, _⟩ => ⟨S1024x8, .f32⟩
  | .hbm, ⟨1, _⟩ => ⟨S1024x8, .i32⟩
  | .hbm, ⟨2, _⟩ => ⟨S8192, .f32⟩
  | .hbm, ⟨3, _⟩ => ⟨S_, .i32⟩
  | .hbm, ⟨4, _⟩ => ⟨S1024x8, .i32⟩
  | .hbm, ⟨5, _⟩ => ⟨S1024x8, .i1⟩
  | .hbm, ⟨6, _⟩ => ⟨S1024x8, .f32⟩
  | .hbm, ⟨7, _⟩ => ⟨S8192, .f32⟩
  | .hbm, ⟨8, _⟩ => ⟨S_, .i32⟩
  | .hbm, ⟨9, _⟩ => ⟨S1024x8, .i32⟩
  | .hbm, ⟨10, _⟩ => ⟨S1024x8, .i1⟩
  | .hbm, ⟨11, _⟩ => ⟨S1024x8, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S8192x1, .f32⟩
  | .hbm, ⟨16, _⟩ => ⟨S1x8192, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x1024, .f32⟩
  | .local _ .vmem, ⟨3, _⟩ => ⟨S1x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1x1, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c15_i32 : BitVec 32 := 15#32
  let v38 : BitVec 1 := Scalar.cmpi .eq arg0 c15_i32
  let arg1 : BitVec 32 := BitVec.ofNat 32 (i 1).val
  let c7_i32 : BitVec 32 := 7#32
  let v39 : BitVec 1 := Scalar.cmpi .eq arg1 c7_i32
  let v40 : BitVec 1 := Scalar.andi v38 v39
  let v41 : BitVec 32 := Scalar.extui v40
  let c0_i32_15 : BitVec 32 := 0#32
  let v42 : BitVec 1 := Scalar.cmpi .ne v41 c0_i32_15
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S1024x8_S8192 : S1024x8.ShapeCasts S8192
  bcast_S_S1024x8 : S_.BroadcastsInDim S1024x8 (![] : Fin 0 → Fin S1024x8.rank)
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  shapeCasts_S512x1024_S1x512x1024 : S512x1024.ShapeCasts S1x512x1024
  reduces_S1x512x1024_S1 : S1x512x1024.Reduces [1, 2] S1
  shapeCasts_S1_S1x1x1 : S1.ShapeCasts S1x1x1
  inpos_S1x1x1_p0_0_0 : ∀ a, (![0, 0, 0] : Fin 3 → Nat) a < S1x1x1.size a
  reducesTo_S8192_S_d0 : S8192.ReducesTo [0] S_
  h_S_ : 0 < S_.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v9) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x8 : Shape := ⟨2, ![1024, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 46
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S1024x8, .i32⟩
  | .hbm, ⟨2, _⟩ => ⟨S_, .i32⟩
  | .hbm, ⟨3, _⟩ => ⟨S1024x8, .i32⟩
  | .hbm, ⟨4, _⟩ => ⟨S1024x8, .i1⟩
  | .hbm, ⟨5, _⟩ => ⟨S_, .i32⟩
  | .hbm, ⟨6, _⟩ => ⟨S1024x8, .i32⟩
  | .hbm, ⟨7, _⟩ => ⟨S1024x8, .i1⟩
  | .hbm, ⟨8, _⟩ => ⟨S8192, .f32⟩
  | .hbm, ⟨9, _⟩ => ⟨S8192, .i1⟩
  | .hbm, ⟨10, _⟩ => ⟨S8192, .f32⟩
  | .hbm, ⟨11, _⟩ => ⟨S8192, .i1⟩
  | .hbm, ⟨12, _⟩ => ⟨S8192, .f32⟩
  | .hbm, ⟨13, _⟩ => ⟨S1x8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .i1⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x1, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]

class Facts₀ : Prop where
  bcast_S_S1024x8 : S_.BroadcastsInDim S1024x8 (![] : Fin 0 → Fin S1024x8.rank)
  shapeCasts_S1024x8_S8192 : S1024x8.ShapeCasts S8192
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel
  reducesTo_S8192_S_d0 : S8192.ReducesTo [0] S_

variable [Facts₀]

class Facts : Prop extends Facts₀ where

variable [Facts]
-- ==== Proof.KernelPieces.lean ====
import proofs.«143236_j55516747268199_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each control case of the body leaves behind, as values.

  The body keeps one running scalar in a 1×1 scratch. Every case ends by storing, over the whole scratch, the
  carried scalar plus the tile's weighted sum (the second payload). At the first grid point the scratch is first
  set to the zero splat (the first payload), so the carried scalar is that zero; at the last point the scratch is
  then copied, whole, into the 1×1 output block. -/

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- A middle point: the scratch ends at the carried scalar plus the tile's sum. -/
theorem scratch_B (c : Dev nD) (i : grid0.Coords) (a2 : Memref sig .tc .vmem S512x1 .f32) (h2 : a2.IsWhole) (a3 : Memref sig .tc .vmem S1x1024 .f32) (h3 : a3.IsWhole) (a4 : Memref sig .tc .vmem S512x1 .f32) (h4 : a4.IsWhole) (a5 : Memref sig .tc .vmem S1x1024 .f32) (h5 : a5.IsWhole) (a6 : Memref sig .tc .vmem S1x1 .f32) (h6 : a6.IsWhole) (a7 : Memref sig .tc .vmem S1x1 .f32) (h7 : a7.IsWhole) (hc0 : ¬cond0_0 i) (hc1 : ¬cond0_1 i) (x0 : Vec F S512x1 .f32) (x1 : Vec F S1x1024 .f32) (x2 : Vec F S512x1 .f32) (x3 : Vec F S1x1024 .f32) (xs0 : Vec F S1x1 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz]
  simp only [View.readAt_eq_ld, h2.read_unread, h3.read_unread, h4.read_unread, h5.read_unread, h6.read_unread, h7.read_unread, View.ld_unit_zero (S := S512x1) hz, View.ld_unit_zero (S := S1x1024) hz, View.ld_unit_zero (S := S1x1) hz]

/-- The first point: the scratch is zeroed, then ends at that zero plus the tile's sum. -/
theorem scratch_A (c : Dev nD) (i : grid0.Coords) (a2 : Memref sig .tc .vmem S512x1 .f32) (h2 : a2.IsWhole) (a3 : Memref sig .tc .vmem S1x1024 .f32) (h3 : a3.IsWhole) (a4 : Memref sig .tc .vmem S512x1 .f32) (h4 : a4.IsWhole) (a5 : Memref sig .tc .vmem S1x1024 .f32) (h5 : a5.IsWhole) (a6 : Memref sig .tc .vmem S1x1 .f32) (h6 : a6.IsWhole) (a7 : Memref sig .tc .vmem S1x1 .f32) (h7 : a7.IsWhole) (hc0 : cond0_0 i) (hc1 : ¬cond0_1 i) (x0 : Vec F S512x1 .f32) (x1 : Vec F S1x1024 .f32) (x2 : Vec F S512x1 .f32) (x3 : Vec F S1x1024 .f32) :
    sout0_A_0 c i a2 h2 a3 h3 a4 h4 a5 h5 a6 h6 a7 h7 hc0 hc1 x0 x1 x2 x3 = k0_pay2 x0 x1 x2 x3 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread, h6.read_unread, h7.read_unread, View.ld_unit_zero (S := S512x1) hz, View.ld_unit_zero (S := S1x1024) hz, View.ld_unit_zero (S := S1x1) hz]

/-- The last point: the scratch ends at the carried scalar plus the tile's sum … -/
theorem scratch_C (c : Dev nD) (i : grid0.Coords) (a2 : Memref sig .tc .vmem S512x1 .f32) (h2 : a2.IsWhole) (a3 : Memref sig .tc .vmem S1x1024 .f32) (h3 : a3.IsWhole) (a4 : Memref sig .tc .vmem S512x1 .f32) (h4 : a4.IsWhole) (a5 : Memref sig .tc .vmem S1x1024 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 : Vec F S512x1 .f32) (x1 : Vec F S1x1024 .f32) (x2 : Vec F S512x1 .f32) (x3 : Vec F S1x1024 .f32) (xs0 : Vec F S1x1 .f32) :
    sout0_C_0 c i a2 h2 a3 h3 a4 h4 a5 h5 a6 h6 a7 h7 hc0 hc1 x0 x1 x2 x3 xs0 = k0_pay2 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero (S := S1x1) hz]
  simp only [View.readAt_eq_ld, h2.read_unread, h3.read_unread, h4.read_unread, h5.read_unread, h6.read_unread, h7.read_unread, View.ld_unit_zero (S := S512x1) hz, View.ld_unit_zero (S := S1x1024) hz, View.ld_unit_zero (S := S1x1) hz]

/-- … and the output block is a copy of it. -/
theorem out_C (c : Dev nD) (i : grid0.Coords) (a2 : Memref sig .tc .vmem S512x1 .f32) (h2 : a2.IsWhole) (a3 : Memref sig .tc .vmem S1x1024 .f32) (h3 : a3.IsWhole) (a4 : Memref sig .tc .vmem S512x1 .f32) (h4 : a4.IsWhole) (a5 : Memref sig .tc .vmem S1x1024 .f32) (h5 : a5.IsWhole) (a6 : Memref sig .tc .vmem S1x1 .f32) (h6 : a6.IsWhole) (a7 : Memref sig .tc .vmem S1x1 .f32) (h7 : a7.IsWhole) (hc0 : ¬cond0_0 i) (hc1 : cond0_1 i) (x0 : Vec F S512x1 .f32) (x1 : Vec F S1x1024 .f32) (x2 : Vec F S512x1 .f32) (x3 : Vec F S1x1024 .f32) (xs0 : Vec F S1x1 .f32) :
    out0_C_4 c i a2 h2 a3 h3 a4 h4 a5 h5 a6 h6 a7 h7 hc0 hc1 x0 x1 x2 x3 xs0 = k0_pay2 x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero (S := S1x1) hz, View.readCov_unit_zero (S := S1x1) _ hz]
  simp only [View.readAt_eq_ld, h2.read_unread, h3.read_unread, h4.read_unread, h5.read_unread, h6.read_unread, h7.read_unread, View.ld_unit_zero (S := S512x1) hz, View.ld_unit_zero (S := S1x1024) hz, View.ld_unit_zero (S := S1x1) hz]

end Cert.KernelIdeal.Pieces
end
-- ==== Proof.PairTerm.lean ====
/-
  The reweighted pairwise loss on the extended reals, as one function of three flat vectors of length 8192:
  scores `v`, a positive mask `mp` and a negative mask `mn`.

    total v mp mn = ∑ a, ∑ b, softplus (v b - v a) * (mp a * mn b)
    loss  v mp mn = total v mp mn / ((0 + ∑ mp) * (0 + ∑ mn))

  The softplus of a difference `d` is written `max d 0 + log1p (exp (0 - |d|))`, with `|d| = max d (-d)`.
  A second spelling, `max d 0 + log1p (exp (-|d - 0|))` behind a test `d - 0 ≠ d - 0` that never fires, is the
  same extended real: `d - 0 = d` and `0 - a = -a` hold at the infinities too, so no finiteness is used.

  The double sum over 8192 × 8192 pairs is also the sum, over a 16 × 8 grid of tiles, of each 512 × 1024 tile's
  sum: addition of extended reals is commutative and associative, so regrouping needs no finiteness either.
-/
import Idealize.ShloMosaic.PureOps.Ideal
import Idealize.ShloMosaic.PureOps.Ideal.Laws
import Idealize.ShloMosaic.Lib.ValueIdx

noncomputable section

namespace Cert.PairLoss

open Idealize.ShloMosaic

/-- The softplus of a score difference: `max d 0 + log1p (exp (0 - |d|))`. -/
def softplus (d : EReal) : EReal := max d 0 + Ideal.log1p (Ideal.exp (0 - max d (-d)))

/-- The guarded spelling is the same value: the guard `d - 0 ≠ d - 0` is never true, `d - 0 = d`, and negation is
    subtraction from zero. -/
theorem softplus_guarded (d : EReal) :
    Scalar.select (Ideal.cmp .une (d - 0) (d - 0)) (d + 0)
      (max d 0 + Ideal.log1p (Ideal.exp (-(max (d - 0) (-(d - 0)))))) = softplus d := by
  have hc : Ideal.cmp .une (d - 0) (d - 0) = 0#1 := by
    unfold Ideal.cmp
    simp
  rw [hc, ValueIdx.select_zero, sub_zero]
  unfold softplus
  rw [zero_sub]

/-- Row `i` of row tile `p` (tiles of 512 rows). -/
abbrev rowOf (p : Fin 16) (i : Fin 512) : Fin 8192 := ⟨512 * p.val + i.val, by omega⟩
/-- Column `j` of column tile `q` (tiles of 1024 columns). -/
abbrev colOf (q : Fin 8) (j : Fin 1024) : Fin 8192 := ⟨1024 * q.val + j.val, by omega⟩

/-- The weighted term of the pair (a, b). -/
def term (v mp mn : Fin 8192 → EReal) (a b : Fin 8192) : EReal := softplus (v b - v a) * (mp a * mn b)

/-- The sum over all pairs. -/
def total (v mp mn : Fin 8192 → EReal) : EReal := ∑ a : Fin 8192, ∑ b : Fin 8192, term v mp mn a b

/-- The sum over tile (p, q): rows `512 p …`, columns `1024 q …`. -/
def tileSum (v mp mn : Fin 8192 → EReal) (p : Fin 16) (q : Fin 8) : EReal :=
  ∑ i : Fin 512, ∑ j : Fin 1024, term v mp mn (rowOf p i) (colOf q j)

section Regroup
variable {M : Type*} [AddCommMonoid M]

/-- A sum over `m * n` positions is the sum over `m` groups of `n` consecutive positions. -/
theorem sum_groups (m n : ℕ) (g : Fin (m * n) → M) :
    ∑ a, g a = ∑ p : Fin m, ∑ i : Fin n, g (finProdFinEquiv (p, i)) := by
  rw [← Equiv.sum_comp finProdFinEquiv g, Fintype.sum_prod_type]

theorem sum_rows (g : Fin 8192 → M) : ∑ a, g a = ∑ p : Fin 16, ∑ i : Fin 512, g (rowOf p i) := by
  have h := sum_groups 16 512 (M := M) g
  rw [h]
  refine Finset.sum_congr rfl fun p _ => Finset.sum_congr rfl fun i _ => congrArg g (Fin.ext ?_)
  show i.val + 512 * p.val = 512 * p.val + i.val
  omega

theorem sum_cols (g : Fin 8192 → M) : ∑ b, g b = ∑ q : Fin 8, ∑ j : Fin 1024, g (colOf q j) := by
  have h := sum_groups 8 1024 (M := M) g
  rw [h]
  refine Finset.sum_congr rfl fun q _ => Finset.sum_congr rfl fun j _ => congrArg g (Fin.ext ?_)
  show j.val + 1024 * q.val = 1024 * q.val + j.val
  omega

/-- The 128 grid points, in row-major order, are the 16 × 8 tiles: point `t` is tile (t / 8, t % 8). -/
theorem sum_points (h : Fin 16 → Fin 8 → M) :
    ∑ t : Fin 128, h ⟨t.val / 8, by omega⟩ ⟨t.val % 8, by omega⟩ = ∑ p : Fin 16, ∑ q : Fin 8, h p q := by
  have e := sum_groups 16 8 (M := M) (fun t : Fin (16 * 8) => h ⟨t.val / 8, by omega⟩ ⟨t.val % 8, by omega⟩)
  refine e.trans ?_
  refine Finset.sum_congr rfl fun p _ => Finset.sum_congr rfl fun q _ => ?_
  have h1 : (finProdFinEquiv (p, q) : Fin (16 * 8)).val = q.val + 8 * p.val := rfl
  congr 1
  · apply Fin.ext; show (finProdFinEquiv (p, q) : Fin (16 * 8)).val / 8 = p.val; rw [h1]; omega
  · apply Fin.ext; show (finProdFinEquiv (p, q) : Fin (16 * 8)).val % 8 = q.val; rw [h1]; omega

end Regroup

/-- The sum over all pairs is the sum of the tiles' sums over the grid's points in order. -/
theorem total_eq_sum_tiles (v mp mn : Fin 8192 → EReal) :
    total v mp mn = ∑ t : Fin 128, tileSum v mp mn ⟨t.val / 8, by omega⟩ ⟨t.val % 8, by omega⟩ := by
  refine Eq.trans ?_ (sum_points (fun p q => tileSum v mp mn p q)).symm
  unfold total tileSum
  refine (sum_rows (fun a => ∑ b : Fin 8192, term v mp mn a b)).trans ?_
  refine Finset.sum_congr rfl fun p _ => ?_
  refine Eq.trans ?_ (Finset.sum_comm (s := (Finset.univ : Finset (Fin 512))) (t := (Finset.univ : Finset (Fin 8)))
    (f := fun i q => ∑ j : Fin 1024, term v mp mn (rowOf p i) (colOf q j)))
  exact Finset.sum_congr rfl fun i _ => sum_cols (fun b => term v mp mn (rowOf p i) b)

/-- The loss: the total over the product of the two masks' sums, each taken from zero. -/
def loss (v mp mn : Fin 8192 → EReal) : EReal :=
  Ideal.div (total v mp mn) ((0 + ∑ a, mp a) * (0 + ∑ b, mn b))

/-! ## The three vectors, read off the two argument arrays -/

/-- Position `a` of a `[1024, 8]` array read flat in row-major order: row `a / 8`, lane `a % 8`. -/
abbrev flatIdx (a : Fin 8192) : (⟨2, ![1024, 8]⟩ : Shape).Idx :=
  ValueIdx.ix2 (⟨a.val / 8, by omega⟩ : Fin 1024) (⟨a.val % 8, by omega⟩ : Fin 8)

/-- The scores, flat. -/
def scores (x : (⟨2, ![1024, 8]⟩ : Shape).Idx → EReal) (a : Fin 8192) : EReal := x (flatIdx a)

/-- The labels equal to the word `w`, flat, as the reals 0 and 1. -/
def maskOf (w : BitVec 32) (y : (⟨2, ![1024, 8]⟩ : Shape).Idx → BitVec 32) (a : Fin 8192) : EReal :=
  (((IntOp.cmpi .eq (y (flatIdx a)) w).toNat : ℝ) : EReal)

/-- The loss of a score array and a label array: positives are the labels 1, negatives the labels 0. -/
def lossOf (x : (⟨2, ![1024, 8]⟩ : Shape).Idx → EReal) (y : (⟨2, ![1024, 8]⟩ : Shape).Idx → BitVec 32) : EReal :=
  loss (scores x) (maskOf 1#32 y) (maskOf 0#32 y)

end Cert.PairLoss

end
-- ==== Proof.LibIdxSum.lean ====
/-
  A sum over the indices of a rank-1 or rank-3 shape is the iterated sum over the coordinates, in any commutative
  additive monoid (the rank-2 form is the library's `ValueIdx.sum_idx2`); and a sum over a unit axis is its one term.
-/
import Idealize.ShloMosaic.Lib.ValueIdx

noncomputable section

namespace Cert.LibIdxSum

open Idealize.ShloMosaic Idealize.ShloMosaic.ValueIdx

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- A sum over the indices of `[n]` is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of `[n0, n1, n2]` is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a leading unit axis the outer sum is its one term. -/
theorem sum_idx3_unit {M : Type*} [AddCommMonoid M] {n1 n2 : Nat} (f : (⟨3, ![1, n1, n2]⟩ : Shape).Idx → M) :
    ∑ i, f i = ∑ b : Fin n1, ∑ c : Fin n2, f (ix3 (0 : Fin 1) b c) := by
  rw [sum_idx3, Fin.sum_univ_one]

end Cert.LibIdxSum

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.KernelPayload.lean ====
/-
  The body's arithmetic, read at `Ideal`.

  From the four blocks the body loads at a grid point — a column of 512 scores, a row of 1024 scores, a column of 512
  positive-mask entries, a row of 1024 negative-mask entries — it forms, at each (i, j) of a 512 × 1024 tile, the
  softplus of (row score j − column score i) times (positive i × negative j), sums the tile, and adds the sum to the
  scalar it carries. The first payload is the zero the carried scalar starts from.
-/
import proofs.«143236_j55516747268199_1_alg».proof.Proof.Gen.KernelIdeal.Skeleton
import proofs.«143236_j55516747268199_1_alg».proof.Proof.PairTerm
import proofs.«143236_j55516747268199_1_alg».proof.Proof.LibIdxSum
import proofs.«143236_j55516747268199_1_alg».proof.Proof.LibColBroadcast
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.PairLoss

/-- The weighted sum of one tile, from its four blocks. -/
def blockSum (x0 : FVec Ideal S512x1 .f32) (x1 : FVec Ideal S1x1024 .f32) (x2 : FVec Ideal S512x1 .f32)
    (x3 : FVec Ideal S1x1024 .f32) : EReal :=
  ∑ i : Fin 512, ∑ j : Fin 1024,
    softplus (x1 (ix2 (0 : Fin 1) j) - x0 (ix2 i (0 : Fin 1))) * (x2 (ix2 i (0 : Fin 1)) * x3 (ix2 (0 : Fin 1) j))

/-- A 512 × 1024 array recast `[1, 512, 1024]`, summed over its last two axes into `[1]`, recast `[1, 1, 1]` and read
    at its one entry, is the array's double sum. -/
theorem sum_of_tile (w : FVec Ideal S512x1024 .f32) (hc : S512x1024.ShapeCasts S1x512x1024)
    (hr : S1x512x1024.Reduces [1, 2] S1) (hφ : FKind.Formats .f32)
    (hacc : (0x00000000#32 : BitVec 32) = FKind.add.neutral .f32 hφ) (hc' : S1.ShapeCasts S1x1x1)
    (hp : ∀ a, (![0, 0, 0] : Fin 3 → Nat) a < S1x1x1.size a) :
    extractAt ![0, 0, 0]
        (shapeCast S1x1x1 (multiReduction (F := Ideal) .add [1, 2] S1 (shapeCast S1x512x1024 w hc) 0x00000000#32 hr hφ hacc) hc') hp
      = ∑ i : Fin 512, ∑ j : Fin 1024, w (ix2 i j) := by
  unfold extractAt
  refine (shapeCast_apply _ hc' _ (ix1 (0 : Fin 1)) ?_).trans ?_
  · rw [Shape.rowMajor_val_one, Shape.rowMajor_val_three]
    rfl
  refine (Ideal.multiReduction_add_total _ _ hr (fun b => by fin_cases b; rfl) hφ hacc _).trans ?_
  refine (Cert.LibIdxSum.sum_idx3_unit _).trans ?_
  exact Finset.sum_congr rfl fun i _ => Finset.sum_congr rfl fun j _ => shapeCast_ab_1ab_apply w hc 0 i j

/-- A scalar added to a 1 × 1 array, read at its entry. -/
theorem carried_plus (xs : FVec Ideal S1x1 .f32) (e : EReal) (h : S1x1.ShapeCasts S1x1) (y : S1x1.Idx) :
    shapeCast S1x1 (addf xs (broadcast S1x1 e)) h y = xs y + e := by
  rw [shapeCast_self]
  rfl

/-- The first payload is the zero splat. -/
theorem pay1_apply (y : S1x1.Idx) : k0_pay1 (F := Ideal) y = 0 := by
  unfold k0_pay1
  rw [shapeCast_self]
  exact Ideal.ofBits_zero_f32

/-- The second payload: the carried scalar plus the tile's sum. -/
theorem pay2_apply (x0 : FVec Ideal S512x1 .f32) (x1 : FVec Ideal S1x1024 .f32) (x2 : FVec Ideal S512x1 .f32)
    (x3 : FVec Ideal S1x1024 .f32) (xs : FVec Ideal S1x1 .f32) (y : S1x1.Idx) :
    k0_pay2 (F := Ideal) x0 x1 x2 x3 xs y = xs y + blockSum x0 x1 x2 x3 := by
  unfold k0_pay2
  dsimp only
  refine (carried_plus xs _ _ y).trans ?_
  refine congrArg (fun z => xs y + z) ?_
  refine (sum_of_tile _ _ _ _ _ _ _).trans ?_
  unfold blockSum
  refine Finset.sum_congr rfl fun i _ => Finset.sum_congr rfl fun j _ => ?_
  simp only [shapeCast_self]
  simp only [mulf_apply, addf_apply, maximumf_apply, subf_apply, broadcast_apply, broadcastTo_1b_ab_apply,
    Cert.LibColBroadcast.broadcastTo_a1_ab_apply, Idealize.ShloMosaic.log1p, Idealize.ShloMosaic.exp,
    Idealize.ShloMosaic.absf, Ideal.log1p_def, Ideal.exp_def, Ideal.absf_def, Ideal.ofBits_def,
    Ideal.ofBits_zero_f32]
  rfl

/-- Blocks that read rows `512 p + i` and columns `1024 q + j` of three flat vectors give tile (p, q)'s sum. -/
theorem blockSum_eq_tileSum (x0 : FVec Ideal S512x1 .f32) (x1 : FVec Ideal S1x1024 .f32) (x2 : FVec Ideal S512x1 .f32)
    (x3 : FVec Ideal S1x1024 .f32) (v mp mn : Fin 8192 → EReal) (p : Fin 16) (q : Fin 8)
    (h0 : ∀ i : Fin 512, x0 (ix2 i (0 : Fin 1)) = v (rowOf p i))
    (h1 : ∀ j : Fin 1024, x1 (ix2 (0 : Fin 1) j) = v (colOf q j))
    (h2 : ∀ i : Fin 512, x2 (ix2 i (0 : Fin 1)) = mp (rowOf p i))
    (h3 : ∀ j : Fin 1024, x3 (ix2 (0 : Fin 1) j) = mn (colOf q j)) :
    blockSum x0 x1 x2 x3 = tileSum v mp mn p q := by
  unfold blockSum tileSum term
  refine Finset.sum_congr rfl fun i _ => Finset.sum_congr rfl fun j _ => ?_
  rw [h0 i, h1 j, h2 i, h3 j]

end Cert.KernelIdeal.Payload

end
-- ==== Proof.KernelArrays.lean ====
/-
  What the region finds and what its blocks read.

  Before the call the host flattens the score array `[1024, 8]` to 8192 entries and views it once as a column
  `[8192, 1]` and once as a row `[1, 8192]`; it turns the labels into two 0/1 masks (label = 1, label = 0),
  flattens each, and views the positive mask as a column and the negative mask as a row. Entry `a` of each is the
  entry at row `a / 8`, lane `a % 8` of the argument (row-major order).

  At grid point `t` = (t / 8, t % 8) the column windows hold rows `512 (t / 8) …` and the row windows hold columns
  `1024 (t % 8) …`.
-/
import proofs.«143236_j55516747268199_1_alg».proof.Proof.Gen.KernelIdeal.Frame
import proofs.«143236_j55516747268199_1_alg».proof.Proof.PairTerm
import Idealize.ShloMosaic.Lib.Pipeline.Value
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.ValueIdx Cert.PairLoss

variable (m : (ℓ : Loc nD τ sig) → Buf (Elt Ideal) ℓ)

/-- The score array as launched on core `c`. -/
abbrev scoresArr (c : Dev nD) : S1024x8.Idx → EReal := m ((c : Thread nD τ).loc main_arg0)
/-- The label array as launched on core `c`. -/
abbrev labelsArr (c : Dev nD) : S1024x8.Idx → BitVec 32 := m ((c : Thread nD τ).loc main_arg1)

/-- The labels equal to `w`, as a 0/1 float array, flattened. -/
abbrev flatMask (c : Dev nD) (w : BitVec 32) : S8192.Idx → EReal :=
  shapeCast S8192 (uitofp (F := Ideal) .f32 (cmpi .eq (labelsArr m c) (broadcastInDim S1024x8 ![] bcast_S_S1024x8 (constantI S_ 32 w))))
    shapeCasts_S1024x8_S8192
/-- The scores, flattened. -/
abbrev flatScores (c : Dev nD) : S8192.Idx → EReal := shapeCast S8192 (scoresArr m c) shapeCasts_S1024x8_S8192

theorem V_v9 (c : Dev nD) : (V m c main_v9 : S8192x1.Idx → EReal) = shapeCast S8192x1 (flatScores m c) shapeCasts_S8192_S8192x1 := by
  show StableHlo.after hostOps0 (fun b => m (c, b)) (Proc.devRef .tc main_v9) = _
  after_results
  rfl

theorem V_v10 (c : Dev nD) : (V m c main_v10 : S1x8192.Idx → EReal) = shapeCast S1x8192 (flatScores m c) shapeCasts_S8192_S1x8192 := by
  show StableHlo.after hostOps0 (fun b => m (c, b)) (Proc.devRef .tc main_v10) = _
  after_results
  rfl

theorem V_v11 (c : Dev nD) : (V m c main_v11 : S8192x1.Idx → EReal) = shapeCast S8192x1 (flatMask m c 1#32) shapeCasts_S8192_S8192x1 := by
  show StableHlo.after hostOps0 (fun b => m (c, b)) (Proc.devRef .tc main_v11) = _
  after_results
  rfl

theorem V_v12 (c : Dev nD) : (V m c main_v12 : S1x8192.Idx → EReal) = shapeCast S1x8192 (flatMask m c 0#32) shapeCasts_S8192_S1x8192 := by
  show StableHlo.after hostOps0 (fun b => m (c, b)) (Proc.devRef .tc main_v12) = _
  after_results
  rfl

/-! ## Each array read at a flat position -/

/-- Entry `a` of the flattened scores is the score at row `a / 8`, lane `a % 8`. -/
theorem flatScores_apply (c : Dev nD) (a : Fin 8192) : flatScores m c (ix1 a) = scores (scoresArr m c) a := by
  refine (shapeCast_apply _ _ _ (flatIdx a) ?_).trans rfl
  rw [Shape.rowMajor_val_two, Shape.rowMajor_val_one]
  show a.val / 8 * 8 + a.val % 8 = a.val
  omega

/-- Entry `a` of a flattened mask is 1 or 0 as the label at row `a / 8`, lane `a % 8` is the word or not. -/
theorem flatMask_apply (c : Dev nD) (w : BitVec 32) (a : Fin 8192) : flatMask m c w (ix1 a) = maskOf w (labelsArr m c) a := by
  refine (shapeCast_apply _ _ _ (flatIdx a) ?_).trans rfl
  rw [Shape.rowMajor_val_two, Shape.rowMajor_val_one]
  show a.val / 8 * 8 + a.val % 8 = a.val
  omega

/-- A flat vector viewed as a column `[8192, 1]` reads its entry `a` at (a, 0). -/
theorem col_apply (x : S8192.Idx → EReal) (h : S8192.ShapeCasts S8192x1) (a : Fin 8192) :
    shapeCast S8192x1 x h (ix2 a (0 : Fin 1)) = x (ix1 a) := by
  refine shapeCast_apply _ _ _ (ix1 a) ?_
  rw [Shape.rowMajor_val_two, Shape.rowMajor_val_one]
  show a.val = a.val * 1 + 0
  omega

/-- A flat vector viewed as a row `[1, 8192]` reads its entry `b` at (0, b). -/
theorem row_apply (x : S8192.Idx → EReal) (h : S8192.ShapeCasts S1x8192) (b : Fin 8192) :
    shapeCast S1x8192 x h (ix2 (0 : Fin 1) b) = x (ix1 b) := by
  refine shapeCast_apply _ _ _ (ix1 b) ?_
  rw [Shape.rowMajor_val_two, Shape.rowMajor_val_one]
  show b.val = 0 * 8192 + b.val
  omega

theorem V_v9_apply (c : Dev nD) (a : Fin 8192) : V m c main_v9 (ix2 a (0 : Fin 1)) = scores (scoresArr m c) a :=
  (congrFun (V_v9 m c) _).trans ((col_apply _ _ a).trans (flatScores_apply m c a))
theorem V_v10_apply (c : Dev nD) (b : Fin 8192) : V m c main_v10 (ix2 (0 : Fin 1) b) = scores (scoresArr m c) b :=
  (congrFun (V_v10 m c) _).trans ((row_apply _ _ b).trans (flatScores_apply m c b))
theorem V_v11_apply (c : Dev nD) (a : Fin 8192) : V m c main_v11 (ix2 a (0 : Fin 1)) = maskOf 1#32 (labelsArr m c) a :=
  (congrFun (V_v11 m c) _).trans ((col_apply _ _ a).trans (flatMask_apply m c 1#32 a))
theorem V_v12_apply (c : Dev nD) (b : Fin 8192) : V m c main_v12 (ix2 (0 : Fin 1) b) = maskOf 0#32 (labelsArr m c) b :=
  (congrFun (V_v12 m c) _).trans ((row_apply _ _ b).trans (flatMask_apply m c 0#32 b))

/-! ## The grid's points and the blocks -/

/-- Grid point `t`'s row tile, `t / 8`. -/
def tileRow (t : Fin cfg0.N) : Fin 16 :=
  ⟨t.val / 8, by have h : t.val < 128 := lt_of_lt_of_eq t.isLt (show cfg0.N = 128 from N_0); omega⟩
/-- Grid point `t`'s column tile, `t % 8`. -/
def tileCol (t : Fin cfg0.N) : Fin 8 := ⟨t.val % 8, by omega⟩

/-- The column windows' block index at point `t` is (t / 8, 0); the row windows' is (0, t % 8). -/
theorem index_col0 : ∀ t : Fin cfg0.N, win0_0.index t 0 = t.val / 8 ∧ win0_0.index t 1 = 0 :=
  (by decide +kernel : ∀ t : Fin grid0.N, win0_0.index t 0 = t.val / 8 ∧ win0_0.index t 1 = 0)
theorem index_row1 : ∀ t : Fin cfg0.N, win0_1.index t 0 = 0 ∧ win0_1.index t 1 = t.val % 8 :=
  (by decide +kernel : ∀ t : Fin grid0.N, win0_1.index t 0 = 0 ∧ win0_1.index t 1 = t.val % 8)
theorem index_col2 : ∀ t : Fin cfg0.N, win0_2.index t 0 = t.val / 8 ∧ win0_2.index t 1 = 0 :=
  (by decide +kernel : ∀ t : Fin grid0.N, win0_2.index t 0 = t.val / 8 ∧ win0_2.index t 1 = 0)
theorem index_row3 : ∀ t : Fin cfg0.N, win0_3.index t 0 = 0 ∧ win0_3.index t 1 = t.val % 8 :=
  (by decide +kernel : ∀ t : Fin grid0.N, win0_3.index t 0 = 0 ∧ win0_3.index t 1 = t.val % 8)

/-- Window 0's block at point `t` reads, at (i, 0), the column's entry `512 (t / 8) + i`. -/
theorem iblk0_apply (c : Dev nD) (t : Fin cfg0.N) (i : Fin 512) :
    (iblk m c 0 t : S512x1.Idx → EReal) (ix2 i (0 : Fin 1)) = V m c main_v9 (ix2 (rowOf (tileRow t) i) (0 : Fin 1)) := by
  have hi := index_col0 t
  unfold iblk
  rw [View.read_apply]
  show V m c main_v9 _ = V m c main_v9 _
  refine congrArg (V m c main_v9) ?_
  funext a
  apply Fin.ext
  match a with
  | ⟨0, _⟩ => show win0_0.index t 0 * 512 + 1 * i.val = 512 * (t.val / 8) + i.val; rw [hi.1]; omega
  | ⟨1, _⟩ => show win0_0.index t 1 * 1 + 1 * 0 = 0; rw [hi.2]

/-- Window 1's block at point `t` reads, at (0, j), the row's entry `1024 (t % 8) + j`. -/
theorem iblk1_apply (c : Dev nD) (t : Fin cfg0.N) (j : Fin 1024) :
    (iblk m c 1 t : S1x1024.Idx → EReal) (ix2 (0 : Fin 1) j) = V m c main_v10 (ix2 (0 : Fin 1) (colOf (tileCol t) j)) := by
  have hi := index_row1 t
  unfold iblk
  rw [View.read_apply]
  show V m c main_v10 _ = V m c main_v10 _
  refine congrArg (V m c main_v10) ?_
  funext a
  apply Fin.ext
  match a with
  | ⟨0, _⟩ => show win0_1.index t 0 * 1 + 1 * 0 = 0; rw [hi.1]
  | ⟨1, _⟩ => show win0_1.index t 1 * 1024 + 1 * j.val = 1024 * (t.val % 8) + j.val; rw [hi.2]; omega

/-- Window 2's block at point `t` reads, at (i, 0), the column's entry `512 (t / 8) + i`. -/
theorem iblk2_apply (c : Dev nD) (t : Fin cfg0.N) (i : Fin 512) :
    (iblk m c 2 t : S512x1.Idx → EReal) (ix2 i (0 : Fin 1)) = V m c main_v11 (ix2 (rowOf (tileRow t) i) (0 : Fin 1)) := by
  have hi := index_col2 t
  unfold iblk
  rw [View.read_apply]
  show V m c main_v11 _ = V m c main_v11 _
  refine congrArg (V m c main_v11) ?_
  funext a
  apply Fin.ext
  match a with
  | ⟨0, _⟩ => show win0_2.index t 0 * 512 + 1 * i.val = 512 * (t.val / 8) + i.val; rw [hi.1]; omega
  | ⟨1, _⟩ => show win0_2.index t 1 * 1 + 1 * 0 = 0; rw [hi.2]

/-- Window 3's block at point `t` reads, at (0, j), the row's entry `1024 (t % 8) + j`. -/
theorem iblk3_apply (c : Dev nD) (t : Fin cfg0.N) (j : Fin 1024) :
    (iblk m c 3 t : S1x1024.Idx → EReal) (ix2 (0 : Fin 1) j) = V m c main_v12 (ix2 (0 : Fin 1) (colOf (tileCol t) j)) := by
  have hi := index_row3 t
  unfold iblk
  rw [View.read_apply]
  show V m c main_v12 _ = V m c main_v12 _
  refine congrArg (V m c main_v12) ?_
  funext a
  apply Fin.ext
  match a with
  | ⟨0, _⟩ => show win0_3.index t 0 * 1 + 1 * 0 = 0; rw [hi.1]
  | ⟨1, _⟩ => show win0_3.index t 1 * 1024 + 1 * j.val = 1024 * (t.val % 8) + j.val; rw [hi.2]; omega

end Cert.KernelIdeal.Arrays

end
-- ==== Proof.KernelAccum.lean ====
/-
  The scalar the body carries from one grid point to the next is the running sum of the tiles' sums.

  After point 0 the scratch holds `0 +` tile 0's sum; after point `n + 1` it holds what it held after point `n`
  plus tile `n + 1`'s sum. At the last point the output block is a copy of the scratch. By induction on the point,
  never by listing the 128 points.
-/
import proofs.«143236_j55516747268199_1_alg».proof.Proof.Gen.KernelIdeal.Frame
import proofs.«143236_j55516747268199_1_alg».proof.Proof.KernelPieces
import proofs.«143236_j55516747268199_1_alg».proof.Proof.KernelPayload
import proofs.«143236_j55516747268199_1_alg».proof.Proof.KernelArrays

noncomputable section

namespace Cert.KernelIdeal.Accum

open Cert.KernelIdeal Cert.KernelIdeal.Gen Idealize.ShloMosaic Idealize.ShloMosaic.TcCoe Idealize.SL.Sem
open Idealize.ShloMosaic.ValueIdx Cert.PairLoss Cert.KernelIdeal.Arrays

variable (m : (ℓ : Loc nD τ sig) → Buf (Elt Ideal) ℓ)

/-- The three flat vectors on core `c`. -/
abbrev vOf (c : Dev nD) : Fin 8192 → EReal := scores (scoresArr m c)
abbrev mpOf (c : Dev nD) : Fin 8192 → EReal := maskOf 1#32 (labelsArr m c)
abbrev mnOf (c : Dev nD) : Fin 8192 → EReal := maskOf 0#32 (labelsArr m c)

/-- The sum of the tile grid point `t` works on. -/
def pointSum (c : Dev nD) (t : Fin cfg0.N) : EReal := tileSum (vOf m c) (mpOf m c) (mnOf m c) (tileRow t) (tileCol t)

/-- The four blocks at point `t` give that tile's sum. -/
theorem blocks_at (c : Dev nD) (t : Fin cfg0.N) :
    Payload.blockSum (iblk m c 0 t) (iblk m c 1 t) (iblk m c 2 t) (iblk m c 3 t) = pointSum m c t :=
  Payload.blockSum_eq_tileSum (iblk m c 0 t) (iblk m c 1 t) (iblk m c 2 t) (iblk m c 3 t) (vOf m c) (mpOf m c) (mnOf m c) (tileRow t) (tileCol t)
    (fun i => (iblk0_apply m c t i).trans (V_v9_apply m c (rowOf (tileRow t) i)))
    (fun j => (iblk1_apply m c t j).trans (V_v10_apply m c (colOf (tileCol t) j)))
    (fun i => (iblk2_apply m c t i).trans (V_v11_apply m c (rowOf (tileRow t) i)))
    (fun j => (iblk3_apply m c t j).trans (V_v12_apply m c (colOf (tileCol t) j)))

/-- The running sum after point `n`. -/
def runSum (c : Dev nD) : (n : ℕ) → n < cfg0.N → EReal
  | 0, h => 0 + pointSum m c ⟨0, h⟩
  | n + 1, h => runSum c n (Nat.lt_of_succ_lt h) + pointSum m c ⟨n + 1, h⟩

/-- The scratch after the first point. -/
theorem scratch_first (c : Dev nD) (t : Fin cfg0.N) (h0 : t.val % 128 = 0) (h1 : ¬t.val % 128 = 127) :
    (outsAt0 m c t.val t.isLt).2 = k0_pay2 (iblk m c 0 t) (iblk m c 1 t) (iblk m c 2 t) (iblk m c 3 t) (k0_pay1 (F := Ideal)) := by
  rw [outsAt0_A m c t h0 h1]
  exact Pieces.scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- The scratch after a middle point. -/
theorem scratch_middle (c : Dev nD) (t : Fin cfg0.N) (h0 : ¬t.val % 128 = 0) (h1 : ¬t.val % 128 = 127) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  rw [outsAt0_B m c t h0 h1]
  exact Pieces.scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- The scratch after the last point … -/
theorem scratch_last (c : Dev nD) (t : Fin cfg0.N) (h0 : ¬t.val % 128 = 0) (h1 : t.val % 128 = 127) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  exact Pieces.scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- … and the output block there. -/
theorem out_last (c : Dev nD) (t : Fin cfg0.N) (h0 : ¬t.val % 128 = 0) (h1 : t.val % 128 = 127) :
    (outsAt0 m c t.val t.isLt).1 = k0_pay2 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  exact Pieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- The carried scalar after point `n` is the running sum. -/
theorem scratch_eq (c : Dev nD) : ∀ (n : ℕ) (h : n < cfg0.N) (y : S1x1.Idx), (outsAt0 m c n h).2 y = runSum m c n h
  | 0, h, y => by
    have e := scratch_first m c ⟨0, h⟩ rfl (by show ¬(0 % 128 = 127); decide)
    refine (congrFun e y).trans ?_
    refine (Payload.pay2_apply (iblk m c 0 ⟨0, h⟩) (iblk m c 1 ⟨0, h⟩) (iblk m c 2 ⟨0, h⟩) (iblk m c 3 ⟨0, h⟩) (k0_pay1 (F := Ideal)) y).trans ?_
    rw [Payload.pay1_apply y, blocks_at m c ⟨0, h⟩]
    rfl
  | n + 1, h, y => by
    have hN : n + 1 < 128 := lt_of_lt_of_eq h (show cfg0.N = 128 from N_0)
    have h0 : ¬(⟨n + 1, h⟩ : Fin cfg0.N).val % 128 = 0 := by dsimp only; omega
    have e : (outsAt0 m c (n + 1) h).2 = k0_pay2 (iblk m c 0 ⟨n + 1, h⟩) (iblk m c 1 ⟨n + 1, h⟩) (iblk m c 2 ⟨n + 1, h⟩)
        (iblk m c 3 ⟨n + 1, h⟩) (outsAt0 m c n (Nat.lt_of_succ_lt h)).2 := by
      by_cases h1 : (⟨n + 1, h⟩ : Fin cfg0.N).val % 128 = 127
      · exact scratch_last m c ⟨n + 1, h⟩ h0 h1
      · exact scratch_middle m c ⟨n + 1, h⟩ h0 h1
    refine (congrFun e y).trans ?_
    refine (Payload.pay2_apply (iblk m c 0 ⟨n + 1, h⟩) (iblk m c 1 ⟨n + 1, h⟩) (iblk m c 2 ⟨n + 1, h⟩) (iblk m c 3 ⟨n + 1, h⟩)
      (outsAt0 m c n (Nat.lt_of_succ_lt h)).2 y).trans ?_
    rw [blocks_at m c ⟨n + 1, h⟩, scratch_eq c n (Nat.lt_of_succ_lt h) y]
    rfl

/-- The last grid point. -/
def tLast : Fin cfg0.N := ⟨127, by rw [show cfg0.N = 128 from N_0]; decide⟩

/-- The output block at the last point holds the running sum after it. -/
theorem out_final (c : Dev nD) (y : S1x1.Idx) :
    (outsAt0 m c tLast.val tLast.isLt).1 y = runSum m c tLast.val tLast.isLt := by
  have eo := out_last m c tLast (by decide) (by decide)
  have es := scratch_last m c tLast (by decide) (by decide)
  exact (congrFun eo y).trans ((congrFun es y).symm.trans (scratch_eq m c tLast.val tLast.isLt y))

/-- Tile `s`'s sum, for any natural `s` (zero past the grid). -/
def pointSumNat (c : Dev nD) (s : ℕ) : EReal := if hs : s < cfg0.N then pointSum m c ⟨s, hs⟩ else 0

/-- The running sum after point `n` is the sum of the first `n + 1` tiles' sums. -/
theorem runSum_eq_sum (c : Dev nD) : ∀ (n : ℕ) (h : n < cfg0.N),
    runSum m c n h = ∑ s ∈ Finset.range (n + 1), pointSumNat m c s
  | 0, h => by
    rw [Finset.sum_range_one]
    show 0 + pointSum m c ⟨0, h⟩ = pointSumNat m c 0
    rw [zero_add]
    unfold pointSumNat
    rw [dif_pos h]
  | n + 1, h => by
    rw [Finset.sum_range_succ, ← runSum_eq_sum c n (Nat.lt_of_succ_lt h)]
    show runSum m c n _ + pointSum m c ⟨n + 1, h⟩ = runSum m c n _ + pointSumNat m c (n + 1)
    unfold pointSumNat
    rw [dif_pos h]

/-- After the last point the running sum is the sum over all pairs. -/
theorem runSum_last (c : Dev nD) :
    runSum m c tLast.val tLast.isLt = total (vOf m c) (mpOf m c) (mnOf m c) := by
  rw [runSum_eq_sum m c tLast.val tLast.isLt, total_eq_sum_tiles]
  show ∑ s ∈ Finset.range 128, pointSumNat m c s = _
  rw [Finset.sum_range]
  refine Finset.sum_congr rfl fun t _ => ?_
  have ht : t.val < cfg0.N := lt_of_lt_of_eq t.isLt (show cfg0.N = 128 from N_0).symm
  unfold pointSumNat
  rw [dif_pos ht]
  rfl

end Cert.KernelIdeal.Accum

end
-- ==== Proof.KernelResult.lean ====
/-
  The kernel program's result.

  The call's output array is 1 × 1; it is written back once, at the last grid point, with the running sum after that
  point, which is the sum over all pairs. After the call the host sums each flattened mask from zero, multiplies the
  two sums, views the 1 × 1 array as a scalar and divides: the loss of the two arguments.
-/
import proofs.«143236_j55516747268199_1_alg».proof.Proof.Gen.KernelIdeal.Frame
import proofs.«143236_j55516747268199_1_alg».proof.Proof.KernelAccum
import Idealize.ShloMosaic.Lib.Pipeline.Value
import Idealize.ShloMosaic.Lib.StableHlo.Run
import Idealize.ShloMosaic.PureOps.Ideal.Laws

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.PairLoss Cert.KernelIdeal.Arrays Cert.KernelIdeal.Accum

variable (m : (ℓ : Loc nD τ sig) → Buf (Elt Ideal) ℓ) (ρ : Dev nD → PrngReg)

/-- The output array after the run: its one entry is the running sum after the last point. -/
def outArr (c : Dev nD) : Buf (Elt Ideal) ((c : Thread nD τ).loc main_v13) := fun _ => runSum m c tLast.val tLast.isLt

/-- The one write-back, at the last point, writes it: the block at index (0, 0) of a 1 × 1 array is the array. -/
theorem flushed_eq (c : Dev nD) (t : Fin cfg0.N) (hf : (cfg0.win 4).flush t = true) :
    (dats m 0 c).flushed 4 t = ((cfg0.win 4).blk t).view.read (Elt Ideal) (outArr m c) := by
  have hN : cfg0.N = 128 := N_0
  have h3 : t.val = 127 := by have := (flush0_4 t).mp hf; have := t.isLt; omega
  obtain rfl : t = tLast := Fin.ext h3
  show (cfg0.win 4).cut (grid0.coords tLast) ((dats m 0 c).after 4 tLast) = _
  rw [after0_4]
  have hout : (outsAt0 m c tLast.val tLast.isLt).1 = outArr m c := funext fun y => out_final m c y
  rw [hout]
  have hz' : (fun a => win0_4.index tLast a * main_v13.ty.shape.size a) = fun _ => 0 :=
    funext fun a => by fin_cases a <;> decide
  exact (Memref.read_access_unit_zero (Elt Ideal) main_v13 hz' (fun a => by rw [congrFun hz' a]; simp) (outArr m c)).symm

/-- So the output array ends holding it. -/
theorem final (c : Dev nD) : (dats m 0 c).arrAt 4 cfg0.N = outArr m c :=
  (dats m 0 c).arrAt_eq_of_cover 4 (outArr m c) (flushed_eq m c) fun i =>
    ⟨tLast, (flush0_4 tLast).mpr rfl, by
      show i ∈ ((View.whole main_v13).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]
        omega⟩

/-- The flattened masks as the region finds them (the host sums them after the call). -/
theorem V_v4 (c : Dev nD) : (V m c main_v4 : S8192.Idx → EReal) = flatMask m c 1#32 := by
  show StableHlo.after hostOps0 (fun b => m (c, b)) (Proc.devRef .tc main_v4) = _
  after_results
  rfl
theorem V_v8 (c : Dev nD) : (V m c main_v8 : S8192.Idx → EReal) = flatMask m c 0#32 := by
  show StableHlo.after hostOps0 (fun b => m (c, b)) (Proc.devRef .tc main_v8) = _
  after_results
  rfl

/-- The host's sum, from zero, of a flat vector whose entry `a` is `g a`. -/
theorem hostSum_flat (x : S8192.Idx → EReal) (g : Fin 8192 → EReal) (hx : ∀ a, x (ix1 a) = g a)
    (h : S8192.ReducesTo [0] S_) (hu : 0 < S_.numel) (i : S_.Idx) :
    Host.reduceAdd (F := Ideal) x (constant (F := Ideal) S_ .f32 0x00000000#32) h hu i = 0 + ∑ a, g a := by
  simp only [Host.reduceAdd, Ideal.hostReduceAdd_def]
  refine (Ideal.hostReduceAdd_total h (fun b => b.elim0) x _ i).trans ?_
  refine congrArg₂ (· + ·) Ideal.ofBits_zero_f32 ?_
  exact (Cert.LibIdxSum.sum_idx1 _).trans (Finset.sum_congr rfl fun a _ => hx a)

/-- The host's quotient of a scalar by a product of two scalars, read at its one index. -/
theorem quotient_apply (N A B : S_.Idx → EReal) (i : S_.Idx) :
    Host.divf (F := Ideal) (φ := .f32) N (mulf (F := Ideal) (φ := .f32) A B) i = Ideal.div (N i) (A i * B i) := rfl

/-- A 1 × 1 array whose entry is `r`, viewed as a scalar, is `r`. -/
theorem scalar_view (A : S1x1.Idx → EReal) (r : EReal) (hA : ∀ y, A y = r) (h : S1x1.ShapeCasts S_) (i : S_.Idx) :
    shapeCast S_ A h i = r := by
  unfold shapeCast
  exact hA _

/-- What the host operations after the call leave in the result buffer. -/
theorem tail_eq (c : Dev nD) :
    Pipeline.afterTail₀ cfgs (dats m) 0 (V0 m) [hostOps1] c main_v18
      = fun _ => lossOf (scoresArr m c) (labelsArr m c) := by
  unfold Pipeline.afterTail₀
  show StableHlo.after hostOps1 _ (Proc.devRef .tc main_v18) = _
  after_results
  have e13 : Pipeline.withArrays (cfgs 0).spec c (V0 m c) (fun w => (dats m 0 c).arrAt w (cfgs 0).N) (Proc.devRef .tc main_v13) = outArr m c :=
    (Pipeline.withArrays_arr spec0 launch0.win.arr_inj c (V0 m c) (fun w => (dats m 0 c).arrAt w (cfgs 0).N) 4).trans (final m c)
  have e4 : Pipeline.withArrays (cfgs 0).spec c (V0 m c) (fun w => (dats m 0 c).arrAt w (cfgs 0).N) (Proc.devRef .tc main_v4) = flatMask m c 1#32 :=
    (Pipeline.withArrays_of_ne _ c (V0 m c) _ main_v4 (by exact (by decide : ∀ w, Pipeline.arrRef spec0 w ≠ main_v4))).trans (V_v4 m c)
  have e8 : Pipeline.withArrays (cfgs 0).spec c (V0 m c) (fun w => (dats m 0 c).arrAt w (cfgs 0).N) (Proc.devRef .tc main_v8) = flatMask m c 0#32 :=
    (Pipeline.withArrays_of_ne _ c (V0 m c) _ main_v8 (by exact (by decide : ∀ w, Pipeline.arrRef spec0 w ≠ main_v8))).trans (V_v8 m c)
  rw [e13, e4, e8]
  funext i
  refine (quotient_apply _ _ _ i).trans ?_
  unfold lossOf loss
  refine congrArg₂ Ideal.div ?_ (congrArg₂ (fun x y => x * y) ?_ ?_)
  · refine Eq.trans ?_ (runSum_last m c)
    exact scalar_view (outArr m c) _ (fun _ => rfl) _ i
  · exact hostSum_flat (flatMask m c 1#32) _ (flatMask_apply m c 1#32) _ _ i
  · exact hostSum_flat (flatMask m c 0#32) _ (flatMask_apply m c 0#32) _ _ i

/-- The kernel program's run, read: the result buffer at the loss of the arguments, the arguments unchanged. -/
theorem run : θ_run defs (onTc (τ := τ) (main (F := Ideal))) ⟨m, fun _ => 0, ρ⟩ fun r => ∀ c : Dev nD,
      r.2.mem ((c.tc : Thread nD τ).loc main_v18) = (fun _ => lossOf (scoresArr m c) (labelsArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference computes the loss of its two arguments.

  Read one operation at a time: entry `a` of each flattened array is the argument's entry at row `a / 8`, lane
  `a % 8`; the difference array holds `v b - v a` at (a, b); the called softplus is the guarded spelling of the
  softplus of that difference; the weight array holds `mp a * mn b`; the three sums start from zero; the result is the
  quotient of the total by the product of the two masks' sums.
-/
import proofs.«143236_j55516747268199_1_alg».proof.Proof.Gen.ReferenceIdeal.Read
import proofs.«143236_j55516747268199_1_alg».proof.Proof.PairTerm
import proofs.«143236_j55516747268199_1_alg».proof.Proof.LibIdxSum
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.PairLoss

variable (x0 : S1024x8.Idx → EReal) (x1 : S1024x8.Idx → BitVec 32)

/-- The flattened scores. -/
theorem flat_score (a : Fin 8192) : val_main_v4 (F := Ideal) x0 (ix1 a) = scores x0 a := by
  rw [val_main_v4_apply]
  exact congrArg x0 (funext fun d => by match d with | ⟨0, _⟩ => rfl | ⟨1, _⟩ => rfl)

/-- The scores broadcast along rows: entry (a, b) is score `b`. -/
theorem row_score (a b : Fin 8192) : val_main_v11 (F := Ideal) x0 (ix2 a b) = scores x0 b := by
  rw [val_main_v11_apply, val_main_v9_apply, val_main_v4_apply]
  exact congrArg x0 (funext fun d => by match d with | ⟨0, _⟩ => rfl | ⟨1, _⟩ => rfl)

/-- The scores broadcast along columns: entry (a, b) is score `a`. -/
theorem col_score (a b : Fin 8192) : val_main_v12 (F := Ideal) x0 (ix2 a b) = scores x0 a := by
  rw [val_main_v12_apply, val_main_v10_apply, val_main_v4_apply]
  exact congrArg x0 (funext fun d => by match d with | ⟨0, _⟩ => rfl | ⟨1, _⟩ => rfl)

/-- The flattened positive mask. -/
theorem flat_pos (a : Fin 8192) : val_main_v6 (F := Ideal) x1 (ix1 a) = maskOf 1#32 x1 a := by
  rw [val_main_v6_apply, val_main_v5_apply, val_main_v1_apply, val_main_v0_apply, val_main_c_apply]
  have e : idx_main_v5 (ix1 a) = flatIdx a := funext fun d => by match d with | ⟨0, _⟩ => rfl | ⟨1, _⟩ => rfl
  rw [e]
  rfl

/-- The flattened negative mask. -/
theorem flat_neg (a : Fin 8192) : val_main_v8 (F := Ideal) x1 (ix1 a) = maskOf 0#32 x1 a := by
  rw [val_main_v8_apply, val_main_v7_apply, val_main_v3_apply, val_main_v2_apply, val_main_c_0_apply]
  have e : idx_main_v7 (ix1 a) = flatIdx a := funext fun d => by match d with | ⟨0, _⟩ => rfl | ⟨1, _⟩ => rfl
  rw [e]
  rfl

/-- The difference array: `v b - v a` at (a, b). -/
theorem diff_apply (a b : Fin 8192) : val_main_v13 (F := Ideal) x0 (ix2 a b) = scores x0 b - scores x0 a := by
  rw [val_main_v13_apply, row_score, col_score]
  rfl

theorem zero_v0 (i : S8192x8192.Idx) : val_main_call0_v0 (F := Ideal) i = 0 := by
  rw [val_main_call0_v0_apply, val_main_call0_cst_apply]; exact Ideal.ofBits_zero_f32
theorem zero_v2 (i : S8192x8192.Idx) : val_main_call0_v2 (F := Ideal) i = 0 := by
  rw [val_main_call0_v2_apply, val_main_call0_cst_apply]; exact Ideal.ofBits_zero_f32
theorem zero_v5 (i : S8192x8192.Idx) : val_main_call0_v5 (F := Ideal) i = 0 := by
  rw [val_main_call0_v5_apply, val_main_call0_cst_apply]; exact Ideal.ofBits_zero_f32

/-- The called function's result at (a, b): the softplus of the difference, in its guarded spelling. -/
theorem softplus_apply (a b : Fin 8192) :
    val_main_v14 (F := Ideal) x0 (ix2 a b) = softplus (scores x0 b - scores x0 a) := by
  rw [val_main_v14_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, diff_apply, zero_v0, zero_v2, zero_v5]
  exact softplus_guarded _

/-- The weight array: `mp a * mn b` at (a, b). -/
theorem weight_apply (a b : Fin 8192) :
    val_main_v19 (F := Ideal) x1 (ix2 a b) = maskOf 1#32 x1 a * maskOf 0#32 x1 b := by
  rw [val_main_v19_apply, val_main_v17_apply, val_main_v15_apply, val_main_v18_apply, val_main_v16_apply]
  have e1 : idx_main_v15 (idx_main_v17 (ix2 a b)) = ix1 a := funext fun d => by match d with | ⟨0, _⟩ => rfl
  have e2 : idx_main_v16 (idx_main_v18 (ix2 a b)) = ix1 b := funext fun d => by match d with | ⟨0, _⟩ => rfl
  rw [e1, e2, flat_pos, flat_neg]
  rfl

/-- The summed array: the weighted term of the pair (a, b). -/
theorem term_apply (a b : Fin 8192) :
    val_main_v20 (F := Ideal) x0 x1 (ix2 a b) = term (scores x0) (maskOf 1#32 x1) (maskOf 0#32 x1) a b := by
  rw [val_main_v20_apply, softplus_apply, weight_apply]
  rfl

/-- The reference's result is the loss of its arguments. -/
theorem value (i : S_.Idx) : val_main_v25 (F := Ideal) x0 x1 i = lossOf x0 x1 := by
  rw [val_main_v25_apply, val_main_v21_apply, val_main_v24_apply, val_main_v22_apply, val_main_v23_apply,
    val_main_cst_apply, val_main_cst_1_apply, val_main_cst_2_apply]
  have hnum : ∑ j : S8192x8192.Idx, val_main_v20 (F := Ideal) x0 x1 j
      = total (scores x0) (maskOf 1#32 x1) (maskOf 0#32 x1) := by
    refine (sum_idx2 _).trans ?_
    exact Finset.sum_congr rfl fun a _ => Finset.sum_congr rfl fun b _ => term_apply x0 x1 a b
  have hp : ∑ j : S8192.Idx, val_main_v6 (F := Ideal) x1 j = ∑ a, maskOf 1#32 x1 a := by
    refine (Cert.LibIdxSum.sum_idx1 _).trans ?_
    exact Finset.sum_congr rfl fun a _ => flat_pos x1 a
  have hn : ∑ j : S8192.Idx, val_main_v8 (F := Ideal) x1 j = ∑ a, maskOf 0#32 x1 a := by
    refine (Cert.LibIdxSum.sum_idx1 _).trans ?_
    exact Finset.sum_congr rfl fun a _ => flat_neg x1 a
  rw [hnum, hp, hn]
  show Ideal.div (Ideal.ofBits .f32 0x00000000#32 + _)
    ((Ideal.ofBits .f32 0x00000000#32 + _) * (Ideal.ofBits .f32 0x00000000#32 + _)) = _
  rw [Ideal.ofBits_zero_f32, zero_add]
  rfl

end Cert.ReferenceIdeal.RefValue

end
-- ==== Proof.lean ====
/-
  The reweighted pairwise loss: a Pallas kernel against its jnp reference, equal over the extended reals.

  Both programs compute, from scores `v` and two 0/1 masks `mp`, `mn` over 8192 flat positions,

      ( ∑ a, ∑ b, softplus (v b - v a) * (mp a * mn b) ) / ( (∑ mp) * (∑ mn) ).

  The reference forms the 8192 × 8192 array of terms and sums it once. The kernel walks a 16 × 8 grid of
  512 × 1024 tiles, adds each tile's sum into one carried scalar (zeroed at the first point), writes the scalar out
  at the last point, and the host divides. Addition of extended reals is commutative and associative, so the two
  groupings of the sum agree with no appeal to finiteness; the reference's softplus differs from the kernel's only by
  `d - 0` for `d`, a negation for a subtraction from zero, and a test `x ≠ x` that never fires. The quotient is the
  same host division on both sides.

  The idealization rewrote nothing, so the kernel's idealization is its own text read over the extended reals.
-/
import proofs.«143236_j55516747268199_1_alg».proof.Defs
import proofs.«143236_j55516747268199_1_alg».proof.Proof.Gen.Kernel
import proofs.«143236_j55516747268199_1_alg».proof.Proof.Gen.Kernel.Skeleton
import proofs.«143236_j55516747268199_1_alg».proof.Proof.Gen.Kernel.Launch
import proofs.«143236_j55516747268199_1_alg».proof.Proof.Gen.Kernel.Points
import proofs.«143236_j55516747268199_1_alg».proof.Proof.Gen.Kernel.Frame
import proofs.«143236_j55516747268199_1_alg».proof.Proof.Gen.KernelIdeal
import proofs.«143236_j55516747268199_1_alg».proof.Proof.Gen.KernelIdeal.Skeleton
import proofs.«143236_j55516747268199_1_alg».proof.Proof.Gen.KernelIdeal.Launch
import proofs.«143236_j55516747268199_1_alg».proof.Proof.Gen.KernelIdeal.Points
import proofs.«143236_j55516747268199_1_alg».proof.Proof.Gen.KernelIdeal.Frame
import proofs.«143236_j55516747268199_1_alg».proof.Proof.Gen.ReferenceIdeal
import proofs.«143236_j55516747268199_1_alg».proof.Proof.Gen.Pre_finite_inputs
import proofs.«143236_j55516747268199_1_alg».proof.Proof.Gen.ReferenceIdeal.Run
import proofs.«143236_j55516747268199_1_alg».proof.Proof.Gen.ReferenceIdeal.Read
import proofs.«143236_j55516747268199_1_alg».proof.Proof.KernelResult
import proofs.«143236_j55516747268199_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the loss of arguments that agree. -/
theorem algebraic : Cert.algebraic_KernelIdeal_ReferenceIdeal := by
  intro m ρ m' ρ' _ hagree
  refine ⟨fun c => fun _ => Cert.PairLoss.lossOf (Cert.KernelIdeal.Arrays.scoresArr m c) (Cert.KernelIdeal.Arrays.labelsArr m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  funext i
  rw [Cert.ReferenceIdeal.RefValue.value, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
